-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S4096x1024 : Shape := ⟨2, ![4096, 1024]⟩
abbrev S4096 : Shape := ⟨1, ![4096]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S4096 .f32) (main_arg5 : FVec F S4096x1024 .f32) (main_arg6 : FVec F S4096 .f32) (main_arg7 : FVec F S1024 .f32) (main_arg8 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S2048x1024 .f32) (main_arg1 : FVec F S2048x1024 .f32) (main_arg2 : FVec F S2048x1024 .f32) (main_arg3 : FVec F S4096x1024 .f32) (main_arg4 : FVec F S4096 .f32) (main_arg5 : FVec F S4096x1024 .f32) (main_arg6 : FVec F S4096 .f32) (main_arg7 : FVec F S1024 .f32) (main_arg8 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_v13 main_v16
-- ==== Kernel.lean ====
abbrev S2048x1024 : Shape := ⟨2, ![2048, 1024]⟩
abbrev S4096x1024 : Shape := ⟨2, ![4096, 1024]⟩
abbrev S4096 : Shape := ⟨1, ![4096]⟩
abbrev S1024 : Shape := ⟨1, ![1024]⟩
abbrev S1024x4096 : Shape := ⟨2, ![1024, 4096]⟩
abbrev S1x4096 : Shape := ⟨2, ![1, 4096]⟩
abbrev S1x1024 : Shape := ⟨2, ![1, 1024]⟩
abbrev S128x1024 : Shape := ⟨2, ![128, 1024]⟩
abbrev S128x4096 : Shape := ⟨2, ![128, 4096]⟩
abbrev S128x3072 : Shape := ⟨2, ![128, 3072]⟩
abbrev S128 : Shape := ⟨1, ![128]⟩
abbrev S128x1 : Shape := ⟨2, ![128, 1]⟩

abbrev nBuf : Space → Nat
  | .hbm => 19
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S1024x4096, .bf16⟩
  | .hbm, ⟨11, _⟩ => ⟨S1024x4096, .f32⟩
  | .hbm, ⟨12, _⟩ => ⟨S1024x4096, .bf16⟩
  | .hbm, ⟨13, _⟩ => ⟨S4096, .f32⟩
  | .hbm, ⟨14, _⟩ => ⟨S1x4096, .f32⟩
  | .hbm, ⟨15, _⟩ => ⟨S1x1024, .f32⟩
  | .hbm, ⟨16, _⟩ => ⟨S1x1024, .f32⟩
  | .hbm, ⟨17, _⟩ => ⟨S2048x1024, .f32⟩
  | .hbm, ⟨18, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S1x1024, .f32⟩
  | .local _ .vmem, ⟨10, _⟩ => ⟨S1x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S4096x1024_S1024x4096_1_0 : S4096x1024.Transposes [1, 0] S1024x4096
  bitsLt_bf16_f32 : FTy.bits .bf16 < FTy.bits .f32
  shapeCasts_S4096_S1x4096 : S4096.ShapeCasts S1x4096
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x3072 : S128x4096.Slices ![0, 0] S128x3072
  slices_S128x4096_o0_3072_S128x1024 : S128x4096.Slices ![0, 3072] S128x1024
  slices_S128x3072_o0_0_S128x1024 : S128x3072.Slices ![0, 0] S128x1024
  slices_S128x3072_o0_1024_S128x1024 : S128x3072.Slices ![0, 1024] S128x1024
  slices_S128x3072_o0_2048_S128x1024 : S128x3072.Slices ![0, 2048] S128x1024
  reduces_S128x1024_S128 : S128x1024.Reduces [1] S128
  shapeCasts_S128_S128x1 : S128.ShapeCasts S128x1
  broadcasts_S128x1_S128x1024 : S128x1.Broadcasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S2048x1024.size a
  hwx0_0 : ∀ i : grid0.Coords, EltTy.bits .f32 = 32 ∨ (Rect.block (s := S2048x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S2048x1024.size a
  hwx0_1 : ∀ i : grid0.Coords, EltTy.bits .f32 = 32 ∨ (Rect.block (s := S2048x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S2048x1024.size a
  hwx0_2 : ∀ i : grid0.Coords, EltTy.bits .f32 = 32 ∨ (Rect.block (s := S2048x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S2048x1024.size a
  hwx0_8 : ∀ i : grid0.Coords, EltTy.bits .f32 = 32 ∨ (Rect.block (s := S2048x1024) S128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S2048x1024.size a
  hwx0_9 : ∀ i : grid0.Coords, EltTy.bits .f32 = 32 ∨ (Rect.block (s := S2048x1024) S128x1024.size (cc0_transform_9 i) (hinb0_9 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8_0) S128x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_1) S128x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S4096x1024 : Shape := ⟨2, ![4096, 1024]⟩
abbrev S4096 : Shape := ⟨1, ![4096]⟩
abbrev S1024 : Shape := ⟨1, ![1024]⟩
abbrev S1024x4096 : Shape := ⟨2, ![1024, 4096]⟩
abbrev S2048x4096 : Shape := ⟨2, ![2048, 4096]⟩
abbrev S1x4096 : Shape := ⟨2, ![1, 4096]⟩
abbrev S2048x3072 : Shape := ⟨2, ![2048, 3072]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S2048x4096, .f32⟩
  | .hbm, ⟨11, _⟩ => ⟨S1x4096, .f32⟩
  | .hbm, ⟨12, _⟩ => ⟨S2048x4096, .f32⟩
  | .hbm, ⟨13, _⟩ => ⟨S2048x4096, .f32⟩
  | .hbm, ⟨14, _⟩ => ⟨S1024x4096, .f32⟩
  | .hbm, ⟨15, _⟩ => ⟨S2048x4096, .f32⟩
  | .hbm, ⟨16, _⟩ => ⟨S2048x4096, .f32⟩
  | .hbm, ⟨17, _⟩ => ⟨S1x4096, .f32⟩
  | .hbm, ⟨18, _⟩ => ⟨S2048x4096, .f32⟩
  | .hbm, ⟨19, _⟩ => ⟨S2048x4096, .f32⟩
  | .hbm, ⟨20, _⟩ => ⟨S2048x3072, .f32⟩
  | .hbm, ⟨21, _⟩ => ⟨S2048x3072, .f32⟩
  | .hbm, ⟨22, _⟩ => ⟨S2048x3072, .f32⟩
  | .hbm, ⟨23, _⟩ => ⟨S_, .f32⟩
  | .hbm, ⟨24, _⟩ => ⟨S2048x3072, .f32⟩
  | .hbm, ⟨25, _⟩ => ⟨S2048x3072, .f32⟩
  | .hbm, ⟨26, _⟩ => ⟨S_, .f32⟩
  | .hbm, ⟨27, _⟩ => ⟨S2048x3072, .f32⟩
  | .hbm, ⟨28, _⟩ => ⟨S2048x3072, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S1x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  slices_S2048x4096_S2048x3072_0_0 : S2048x4096.Slices ![0, 0] S2048x3072
  bcast_S_S2048x3072 : S_.BroadcastsInDim S2048x3072 (![] : Fin 0 → Fin S2048x3072.rank)
  slices_S2048x4096_S2048x1024_0_3072 : S2048x4096.Slices ![0, 3072] S2048x1024
  slices_S2048x3072_S2048x1024_0_0 : S2048x3072.Slices ![0, 0] S2048x1024
  slices_S2048x3072_S2048x1024_0_1024 : S2048x3072.Slices ![0, 1024] S2048x1024
  slices_S2048x3072_S2048x1024_0_2048 : S2048x3072.Slices ![0, 2048] S2048x1024
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  dot_S2048x1024_S1024x4096_S2048x4096_1_0_0_1_n_n_wf : DotDims.WF S2048x1024 S1024x4096 S2048x4096 [1] [0] [0] [1] [] []

variable [Facts₀]

def dot_S2048x1024_S1024x4096_S2048x4096_1_0_0_1_n_n : DotDims S2048x1024 S1024x4096 S2048x4096 where
  lhsContracting := [1]
  rhsContracting := [0]
  lhsNonContracting := [0]
  rhsNonContracting := [1]
  lhsBatch := []
  rhsBatch := []
  wf := dot_S2048x1024_S1024x4096_S2048x4096_1_0_0_1_n_n_wf

class Facts : Prop extends Facts₀ where

variable [Facts]
-- ==== Proof.LibRsqrtSqrt.lean ====
/-
  Scaling by an inverse standard deviation on the extended reals.

  A normalization divides by `sqrt v` in one program and multiplies by `rsqrt v` in another. On the extended reals the
  two agree exactly for `0 < v ≤ ⊤`: at a positive real both are the product with `(√v)⁻¹`, at `⊤` both are the product
  with `0`. (They differ at `v = 0`, where `0 / 0` and `0 · ⊤` are different conventions, and below zero.) In a layer
  or RMS normalization `v` is a mean of squares plus a positive constant, and that is positive whatever the entries
  are, infinities included: the square of an extended real is never negative (`⊥ · ⊥ = ⊤`), so neither is a finite sum
  of squares nor its quotient by a positive real. No finiteness of the inputs is needed.
-/
import Idealize.ShloMosaic.PureOps.Ideal

namespace Idealize.ShloMosaic.RsqrtSqrt

open Idealize.ShloMosaic

/-- For `0 < v ≤ ⊤`, `x · rsqrt v = x / sqrt v`, for every extended real `x`. -/
theorem mul_rsqrt_eq_div_sqrt (x v : EReal) (hv : 0 < v) : x * Ideal.rsqrt v = Ideal.div x (Ideal.sqrt v) := by
  induction v with
  | bot => exact absurd hv (by simp)
  | top => rw [Ideal.rsqrt_top, Ideal.sqrt_top, Ideal.div, if_neg EReal.top_ne_zero, EReal.inv_top]
  | coe r =>
    have hr : 0 < r := EReal.coe_pos.mp hv
    have hs : Real.sqrt r ≠ 0 := (Real.sqrt_pos.mpr hr).ne'
    rw [Ideal.rsqrt_coe, Ideal.sqrt_coe, if_neg (not_lt.mpr hr.le), if_neg hr.ne', if_neg (not_lt.mpr hr.le), Ideal.div,
      if_neg (by exact_mod_cast hs), EReal.coe_inv]

/-- The square of an extended real is not negative (the infinities square to `⊤`). -/
theorem ereal_mul_self_nonneg (d : EReal) : 0 ≤ d * d :=
  EReal.mul_nonneg_iff.mpr ((le_total 0 d).imp (fun h => ⟨h, h⟩) (fun h => ⟨h, h⟩))

/-- A finite sum of squares of extended reals is not negative. -/
theorem sum_mul_self_nonneg {ι : Type*} (s : Finset ι) (d : ι → EReal) : 0 ≤ ∑ k ∈ s, d k * d k :=
  Finset.sum_nonneg fun k _ => ereal_mul_self_nonneg (d k)

/-- The quotient of a non-negative extended real by a positive real is not negative. -/
theorem div_pos_real_nonneg {x : EReal} (hx : 0 ≤ x) {n : ℝ} (hn : 0 < n) : 0 ≤ Ideal.div x (n : EReal) := by
  rw [Ideal.div_coe hn.ne']
  exact EReal.mul_nonneg hx (EReal.coe_nonneg.mpr (by positivity))

/-- A non-negative extended real plus a positive one is positive. -/
theorem add_pos_of_nonneg_of_pos {a e : EReal} (ha : 0 ≤ a) (he : 0 < e) : 0 < a + e :=
  lt_of_lt_of_le he (le_add_of_nonneg_left ha)

/-- So with `v` a sum of squares over a positive real `n`, plus a positive `e`: multiplying by `rsqrt v` is dividing by
    `sqrt v`. -/
theorem mul_rsqrt_mean_sq {ι : Type*} (s : Finset ι) (d : ι → EReal) {n : ℝ} (hn : 0 < n) {e : EReal} (he : 0 < e) (x : EReal) :
    x * Ideal.rsqrt (Ideal.div (∑ k ∈ s, d k * d k) (n : EReal) + e)
      = Ideal.div x (Ideal.sqrt (Ideal.div (∑ k ∈ s, d k * d k) (n : EReal) + e)) :=
  mul_rsqrt_eq_div_sqrt _ _ (add_pos_of_nonneg_of_pos (div_pos_real_nonneg (sum_mul_self_nonneg s d) hn) he)

end Idealize.ShloMosaic.RsqrtSqrt
-- ==== Proof.Spec.lean ====
/-
  One step of an LSTM cell whose new cell state is layer-normalized, on the extended reals, one batch row at a time.

  A row of the batch has an input row `xr`, a hidden row `hr` and a cell row `cr` (1024 entries each). The
  pre-activation of gate column `j` (4096 columns: input, forget, output and candidate gates, 1024 each) is the sum
  of the two dot products with row `j` of the two weight matrices plus the two biases. One program adds the biases
  to each other first and the other adds them one after the dot products; addition on the extended reals is
  commutative and associative, so the two agree (`preR_eq_preK`).

  The new cell state is `c · σ(f) + σ(i) · tanh(g)`; it is normalized along the row: the mean is subtracted, and the
  result is scaled by the inverse square root of the variance plus a positive constant. One program multiplies by
  `rsqrt v`, the other divides by `sqrt v`. On the extended reals these differ at `v = 0` and at negative `v`, and
  nowhere else. Here `v` is a mean of squares plus a positive number: a square of an extended real is never
  negative (the infinities square to `⊤`), a sum and a quotient by 1024 of such are not either, so `v > 0`
  whatever the row holds, infinities included, and the two agree (`normR_eq_normK`).
-/
import proofs.«169885_j84696755077791_2_alg».proof.Proof.LibRsqrtSqrt
import Idealize.ShloMosaic.PureOps.Ideal
import Idealize.ShloMosaic.PureOps.Ideal.Laws

noncomputable section

namespace Cert.Lstm

open Idealize.ShloMosaic Idealize.ShloMosaic.RsqrtSqrt

/-! ## The three float constants -/

/-- The float `1024.0` is the real number 1024. -/
theorem ofBits_1024 : Ideal.ofBits .f32 0x44800000#32 = ((1024 : ℝ) : EReal) := by
  simp [Ideal.ofBits, Ideal.ieee, -EReal.coe_mul]; norm_num

/-- The float `1.0` is 1. -/
theorem ofBits_one : Ideal.ofBits .f32 0x3F800000#32 = 1 := by
  simp [Ideal.ofBits, Ideal.ieee, -EReal.coe_mul]; norm_num

/-- The constant added to the variance (the float nearest to 1e-5) is positive. -/
theorem eps_pos : (0 : EReal) < Ideal.ofBits .f32 0x3727C5AC#32 := by
  simp [Ideal.ofBits, Ideal.ieee, -EReal.coe_mul]

/-! ## A row -/

/-- Gate column `o + q` of the 4096, for `q` among the 1024 columns of one gate. -/
def gate (o : Nat) (ho : o + 1024 ≤ 4096) (q : Fin 1024) : Fin 4096 := ⟨o + q.val, by have := q.isLt; omega⟩

/-- The new cell state of a row before normalization: `c · σ(f) + σ(i) · tanh(g)`, the gates read from the row's
    pre-activations `z` (input gate at columns 0.., forget gate at 1024.., candidate at 3072..). -/
def cellRow (z : Fin 4096 → EReal) (c : Fin 1024 → EReal) (q : Fin 1024) : EReal :=
  c q * Ideal.logistic (z (gate 1024 (by norm_num) q))
    + Ideal.logistic (z (gate 0 (by norm_num) q)) * Ideal.tanh (z (gate 3072 (by norm_num) q))

/-- The mean of a row of 1024 entries: their sum divided by the float 1024. -/
def mean (v : Fin 1024 → EReal) : EReal := Ideal.div (∑ k : Fin 1024, v k) (Ideal.ofBits .f32 0x44800000#32)

/-- An entry less the row's mean. -/
def dev (v : Fin 1024 → EReal) (q : Fin 1024) : EReal := v q - mean v

/-- The mean of the squared deviations. -/
def var (v : Fin 1024 → EReal) : EReal := mean fun k => dev v k * dev v k

/-- The normalized row, scaled by `w` and shifted by `b`, with the inverse square root multiplied in. -/
def normK (v w b : Fin 1024 → EReal) (q : Fin 1024) : EReal :=
  dev v q * Ideal.rsqrt (var v + Ideal.ofBits .f32 0x3727C5AC#32) * w q + b q

/-- The same with a division by the square root. -/
def normR (v w b : Fin 1024 → EReal) (q : Fin 1024) : EReal :=
  Ideal.div (dev v q) (Ideal.sqrt (var v + Ideal.ofBits .f32 0x3727C5AC#32)) * w q + b q

/-- The new hidden state: the output gate (columns 2048..) times `tanh` of the normalized cell state `n`. -/
def hiddenRow (z : Fin 4096 → EReal) (n : EReal) (q : Fin 1024) : EReal :=
  Ideal.logistic (z (gate 2048 (by norm_num) q)) * Ideal.tanh n

/-- The mean of squares is not negative, whatever the row holds. -/
theorem var_nonneg (v : Fin 1024 → EReal) : 0 ≤ var v := by
  unfold var mean
  rw [ofBits_1024]
  exact div_pos_real_nonneg (sum_mul_self_nonneg _ _) (by norm_num)

/-- So the two ways of scaling by the inverse standard deviation agree on every row. -/
theorem normR_eq_normK (v w b : Fin 1024 → EReal) (q : Fin 1024) : normR v w b q = normK v w b q := by
  unfold normR normK
  rw [mul_rsqrt_eq_div_sqrt _ _ (add_pos_of_nonneg_of_pos (var_nonneg v) eps_pos)]

/-! ## The pre-activations -/

/-- Gate column `j` of a row: the two dot products, plus the two biases added to each other first. -/
def preK (xr hr : Fin 1024 → EReal) (Wi Wh : Fin 4096 → Fin 1024 → EReal) (bi bh : Fin 4096 → EReal) (j : Fin 4096) : EReal :=
  ((∑ k : Fin 1024, xr k * Wi j k) + ∑ k : Fin 1024, hr k * Wh j k) + (bi j + bh j)

/-- The same with each bias added right after its dot product. -/
def preR (xr hr : Fin 1024 → EReal) (Wi Wh : Fin 4096 → Fin 1024 → EReal) (bi bh : Fin 4096 → EReal) (j : Fin 4096) : EReal :=
  (((∑ k : Fin 1024, xr k * Wi j k) + bi j) + ∑ k : Fin 1024, hr k * Wh j k) + bh j

theorem preR_eq_preK (xr hr : Fin 1024 → EReal) (Wi Wh : Fin 4096 → Fin 1024 → EReal) (bi bh : Fin 4096 → EReal) :
    preR xr hr Wi Wh bi bh = preK xr hr Wi Wh bi bh := by
  funext j
  unfold preR preK
  rw [add_right_comm (∑ k : Fin 1024, xr k * Wi j k) (bi j), add_assoc]

/-! ## The two results of a row -/

/-- The normalized new cell state of a row, entry `q`. -/
def cOut (xr hr cr : Fin 1024 → EReal) (Wi Wh : Fin 4096 → Fin 1024 → EReal) (bi bh : Fin 4096 → EReal)
    (w b : Fin 1024 → EReal) (q : Fin 1024) : EReal :=
  normK (cellRow (preK xr hr Wi Wh bi bh) cr) w b q

/-- The new hidden state of a row, entry `q`. -/
def hOut (xr hr cr : Fin 1024 → EReal) (Wi Wh : Fin 4096 → Fin 1024 → EReal) (bi bh : Fin 4096 → EReal)
    (w b : Fin 1024 → EReal) (q : Fin 1024) : EReal :=
  hiddenRow (preK xr hr Wi Wh bi bh) (cOut xr hr cr Wi Wh bi bh w b q) q

end Cert.Lstm

end
-- ==== Proof.LibKeepdims.lean ====
/-
  Keepdims layouts read at an index given by coordinates.

  A sum taken with `keepdims=True` leaves a unit axis where the summed axis was, so a kernel that brings a matrix down
  to a 1×1 cell one axis at a time passes through the column shapes: a vector `[a]` is made a column `[a, 1]`, a
  column is read back as a vector, laid as a row `[1, a]`, or broadcast across `b` columns. Each lemma reads one of
  these at an index written with `ix1` / `ix2`. The reason is the same every time: the unit coordinate `u : Fin 1`
  is `0`, so the row-major position of `(i, u)` in `[a, 1]` is `i · 1 + 0 = i`, the position of `i` in `[a]`
  and of `(0, i)` in `[1, a]`.

  These complete the leading-unit-axis forms of Lib/ValueLayout.lean (`shapeCast_a_1a_apply`, `shapeCast_1a_a_apply`,
  `broadcastTo_1b_ab_apply`) on the trailing side.
-/
import Idealize.ShloMosaic.Lib.ValueLayout

namespace Idealize.ShloMosaic.KeepdimsLayout

open Idealize.ShloMosaic Idealize.ShloMosaic.ValueIdx

variable {α : Type}

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` cast to a row `[1, a]` reads, at `(u, i)`, the operand at `(i, 0)`: the transpose of a
    column costs nothing, both lay the `a` entries out in order. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A row `[1, a]` cast to a column `[a, 1]` reads, at `(i, u)`, the operand at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.mul_one, Nat.add_zero, Nat.zero_mul, Nat.zero_add])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry vector `[1]` cast to a cell `[1, 1]` reads, anywhere, the operand's entry: the last step of a matrix
    summed down to one cell. -/
theorem shapeCast_1_11_apply (x : (⟨1, ![1]⟩ : Shape).Idx → α) (h : (⟨1, ![1]⟩ : Shape).ShapeCasts ⟨2, ![1, 1]⟩)
    (i u : Fin 1) : shapeCast ⟨2, ![1, 1]⟩ x h (ix2 i u) = x (ix1 (0 : Fin 1)) := by
  have hi : i = 0 := Subsingleton.elim _ _
  subst hi
  exact shapeCast_a_a1_apply x h 0 u

end Idealize.ShloMosaic.KeepdimsLayout
-- ==== Proof.KernelRow.lean ====
/-
  One grid point's block of the kernel, read entry by entry.

  The body holds a block of 128 batch rows: `x`, `h`, `c` are 128 × 1024, the two weight matrices 1024 × 4096 (already
  transposed: entry `(k, j)` is weight `j, k`), the bias a row of 4096 and the two normalization vectors rows of 1024.
  Everything the body computes for row `p` of the block depends on row `p` of `x`, `h`, `c` only, so each value is
  read here at coordinates `(p, q)` and comes out as the row functions of the specification applied to those rows:
  the pre-activations as two dot products plus the bias, the gates by slicing columns at offsets 0, 1024, 2048, 3072,
  the mean and the variance as row sums over 1024 divided by 1024 and kept as a column, the normalized cell state and
  the hidden state.
-/
import proofs.«169885_j84696755077791_2_alg».proof.Proof.Gen.KernelIdeal.Skeleton
import proofs.«169885_j84696755077791_2_alg».proof.Proof.Spec
import proofs.«169885_j84696755077791_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx
open Idealize.ShloMosaic.KeepdimsLayout Cert.Lstm

/-! ## A row sum and a product of matrices at coordinates -/

/-- The sum along a row of a 128 × 1024 block, at row `p`. -/
theorem rowSum_apply (src : FVec Ideal S128x1024 .f32) (p : Fin 128) :
    multiReduction (F := Ideal) .add [1] S128 src 0x00000000#32 reduces_S128x1024_S128 (.inl rfl) rfl (ix1 p)
      = ∑ k : Fin 1024, src (ix2 p k) := by
  refine (Ideal.multiReduction_add_single src 0x00000000#32 reduces_S128x1024_S128 (.inl rfl) rfl (ix1 p)).trans ?_
  refine Finset.sum_congr rfl fun k _ => ?_
  exact congrArg src (funext fun a => Fin.ext (by match a with | ⟨0, _⟩ => rfl | ⟨1, _⟩ => rfl))

theorem lhs_0 (i : S128x4096.Idx) (q : dot_S128x1024_S1024x4096_S128x4096_1_0_0_1_n_n.contr.Idx) : (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl

theorem lhs_1 (i : S128x4096.Idx) (q : dot_S128x1024_S1024x4096_S128x4096_1_0_0_1_n_n.contr.Idx) : (dot_S128x1024_S1024x4096_S128x4096_1_0_0_1_n_n.lhsIdx i q 1).val = (q ⟨0, by decide⟩).val :=
  dot_S128x1024_S1024x4096_S128x4096_1_0_0_1_n_n.lhsIdx_val_of_single rfl i q

theorem rhs_0 (i : S128x4096.Idx) (q : dot_S128x1024_S1024x4096_S128x4096_1_0_0_1_n_n.contr.Idx) : (dot_S128x1024_S1024x4096_S128x4096_1_0_0_1_n_n.rhsIdx i q 0).val = (q ⟨0, by decide⟩).val :=
  dot_S128x1024_S1024x4096_S128x4096_1_0_0_1_n_n.rhsIdx_val_of_single rfl i q

theorem rhs_1 (i : S128x4096.Idx) (q : dot_S128x1024_S1024x4096_S128x4096_1_0_0_1_n_n.contr.Idx) : (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- A 128 × 1024 block times a 1024 × 4096 matrix into a zero accumulator, at `(p, j)`: the dot product of row `p`
    with column `j`. -/
theorem dot_apply (l : FVec Ideal S128x1024 .bf16) (r : FVec Ideal S1024x4096 .bf16) (p : Fin 128) (j : Fin 4096) :
    matmul (F := Ideal) dot_S128x1024_S1024x4096_S128x4096_1_0_0_1_n_n none l r (constant S128x4096 .f32 0x00000000#32) (ix2 p j)
      = ∑ k : Fin 1024, l (ix2 p k) * r (ix2 k j) := by
  refine (Ideal.matmul_constant_zero_apply dot_S128x1024_S1024x4096_S128x4096_1_0_0_1_n_n none l r (ix2 p j)).trans ?_
  rw [← Equiv.sum_comp (ValueIdx.contrEquiv1 dot_S128x1024_S1024x4096_S128x4096_1_0_0_1_n_n 1024 rfl rfl).symm]
  refine Finset.sum_congr rfl fun k _ => ?_
  have hk := ValueIdx.contrEquiv1_symm_val dot_S128x1024_S1024x4096_S128x4096_1_0_0_1_n_n 1024 rfl rfl k
  have el : dot_S128x1024_S1024x4096_S128x4096_1_0_0_1_n_n.lhsIdx (ix2 p j) ((ValueIdx.contrEquiv1 dot_S128x1024_S1024x4096_S128x4096_1_0_0_1_n_n 1024 rfl rfl).symm k) = ix2 p k := funext fun a => Fin.ext (by
    match a with
    | ⟨0, _⟩ => exact lhs_0 _ _
    | ⟨1, _⟩ => exact (lhs_1 _ _).trans hk)
  have er : dot_S128x1024_S1024x4096_S128x4096_1_0_0_1_n_n.rhsIdx (ix2 p j) ((ValueIdx.contrEquiv1 dot_S128x1024_S1024x4096_S128x4096_1_0_0_1_n_n 1024 rfl rfl).symm k) = ix2 k j := funext fun a => Fin.ext (by
    match a with
    | ⟨0, _⟩ => exact (rhs_0 _ _).trans hk
    | ⟨1, _⟩ => exact rhs_1 _ _)
  rw [el, er]

/-! ## The pre-activations and the gates -/

variable (x h c : FVec Ideal S128x1024 .f32) (wi wh : FVec Ideal S1024x4096 .bf16) (b : FVec Ideal S1x4096 .f32)

/-- Gate column `j` of block row `p`: the two dot products plus the bias row's entry `j`. -/
theorem pre_apply (p : Fin 128) (j : Fin 4096) :
    k0_pay3 (F := Ideal) x h wi wh b (ix2 p j)
      = ((∑ k : Fin 1024, x (ix2 p k) * wi (ix2 k j)) + ∑ k : Fin 1024, h (ix2 p k) * wh (ix2 k j)) + b (ix2 (0 : Fin 1) j) := by
  unfold k0_pay3
  show (matmul (F := Ideal) dot_S128x1024_S1024x4096_S128x4096_1_0_0_1_n_n none (truncf .bf16 x bitsLt_bf16_f32) (shapeCast S1024x4096 wi shapeCasts_S1024x4096_S1024x4096) (constant S128x4096 .f32 0x00000000#32) (ix2 p j)
      + matmul (F := Ideal) dot_S128x1024_S1024x4096_S128x4096_1_0_0_1_n_n none (truncf .bf16 h bitsLt_bf16_f32) (shapeCast S1024x4096 wh shapeCasts_S1024x4096_S1024x4096) (constant S128x4096 .f32 0x00000000#32) (ix2 p j))
      + broadcastTo S128x4096 (shapeCast S1x4096 b shapeCasts_S1x4096_S1x4096) broadcasts_S1x4096_S128x4096 (ix2 p j) = _
  rw [dot_apply, dot_apply, shapeCast_self, shapeCast_self, shapeCast_self, broadcastTo_1b_ab_apply]
  rfl

/-- With the bias row the sum of two bias vectors, the pre-activations of block row `p` are the specification's. -/
theorem pre_row (bi bh : Fin 4096 → EReal) (hb : ∀ j : Fin 4096, b (ix2 (0 : Fin 1) j) = bi j + bh j) (p : Fin 128) :
    (fun j : Fin 4096 => k0_pay3 (F := Ideal) x h wi wh b (ix2 p j))
      = preK (fun k => x (ix2 p k)) (fun k => h (ix2 p k)) (fun j k => wi (ix2 k j)) (fun j k => wh (ix2 k j)) bi bh :=
  funext fun j => by rw [pre_apply, hb]; rfl

/-- The logistic of the first 3072 columns, at column `k1`, which is column `k2` of the 4096. -/
theorem sig_apply (p : Fin 128) (k1 : Fin 3072) (k2 : Fin 4096) (hk : k2.val = 0 + k1.val) :
    k0_pay4 (F := Ideal) x h wi wh b (ix2 p k1) = Ideal.logistic (k0_pay3 (F := Ideal) x h wi wh b (ix2 p k2)) := by
  unfold k0_pay4
  show Ideal.logistic (extractStridedSlice S128x3072 ![0, 0] (k0_pay3 (F := Ideal) x h wi wh b) slices_S128x4096_o0_0_S128x3072 (ix2 p k1)) = _
  exact congrArg Ideal.logistic (slice2_axis1_apply 0 _ _ p k1 k2 hk)

/-- A gate of 1024 columns cut out of the logistic at offset `o`. -/
theorem gate_apply (o : Nat) (ho : o + 1024 ≤ 3072) (hs : S128x3072.Slices ![0, o] S128x1024) (p : Fin 128) (q : Fin 1024) :
    extractStridedSlice S128x1024 ![0, o] (k0_pay4 (F := Ideal) x h wi wh b) hs (ix2 p q)
      = Ideal.logistic (k0_pay3 (F := Ideal) x h wi wh b (ix2 p (gate o (by omega) q))) :=
  (slice2_axis1_apply o _ hs p q ⟨o + q.val, by have := q.isLt; omega⟩ rfl).trans
    (sig_apply x h wi wh b p _ _ (by show o + q.val = 0 + (o + q.val); omega))

/-- The new cell state before normalization, at `(p, q)`. -/
theorem cell_apply (p : Fin 128) (q : Fin 1024) :
    k0_pay6 (F := Ideal) x h c wi wh b (ix2 p q)
      = cellRow (fun j => k0_pay3 (F := Ideal) x h wi wh b (ix2 p j)) (fun k => c (ix2 p k)) q := by
  unfold k0_pay6 cellRow
  show c (ix2 p q) * extractStridedSlice S128x1024 ![0, 1024] (k0_pay4 (F := Ideal) x h wi wh b) slices_S128x3072_o0_1024_S128x1024 (ix2 p q)
      + extractStridedSlice S128x1024 ![0, 0] (k0_pay4 (F := Ideal) x h wi wh b) slices_S128x3072_o0_0_S128x1024 (ix2 p q)
        * Ideal.tanh (extractStridedSlice S128x1024 ![0, 3072] (k0_pay3 (F := Ideal) x h wi wh b) slices_S128x4096_o0_3072_S128x1024 (ix2 p q)) = _
  rw [gate_apply x h wi wh b 1024 (by norm_num) _ p q, gate_apply x h wi wh b 0 (by norm_num) _ p q,
    slice2_axis1_apply 3072 _ _ p q (gate 3072 (by norm_num) q) rfl]

theorem cell_row (p : Fin 128) :
    (fun k : Fin 1024 => k0_pay6 (F := Ideal) x h c wi wh b (ix2 p k))
      = cellRow (fun j => k0_pay3 (F := Ideal) x h wi wh b (ix2 p j)) (fun k => c (ix2 p k)) :=
  funext fun k => cell_apply x h c wi wh b p k

/-! ## Mean, deviation, variance -/

/-- The column of row means, at row `p`. -/
theorem mean_apply (p : Fin 128) (u : Fin 1) :
    k0_pay7 (F := Ideal) x h c wi wh b (ix2 p u) = mean (fun k => k0_pay6 (F := Ideal) x h c wi wh b (ix2 p k)) := by
  unfold k0_pay7 mean
  show Ideal.div (shapeCast S128x1 (multiReduction (F := Ideal) .add [1] S128 (k0_pay6 (F := Ideal) x h c wi wh b) 0x00000000#32 reduces_S128x1024_S128 (.inl rfl) rfl) shapeCasts_S128_S128x1 (ix2 p u)) (Ideal.ofBits .f32 0x44800000#32) = _
  exact congrArg (Ideal.div · _) ((shapeCast_a_a1_apply _ _ p u).trans (rowSum_apply _ p))

/-- An entry less its row's mean. -/
theorem dev_apply (p : Fin 128) (q : Fin 1024) :
    k0_pay9 (F := Ideal) x h c wi wh b (ix2 p q) = dev (fun k => k0_pay6 (F := Ideal) x h c wi wh b (ix2 p k)) q := by
  unfold k0_pay9 dev
  show k0_pay6 (F := Ideal) x h c wi wh b (ix2 p q) - broadcastTo S128x1024 (k0_pay7 (F := Ideal) x h c wi wh b) broadcasts_S128x1_S128x1024 (ix2 p q) = _
  rw [broadcastTo_a1_ab_apply, mean_apply]

/-- The column of row variances, at row `p`. -/
theorem var_apply (p : Fin 128) (u : Fin 1) :
    k0_pay8 (F := Ideal) x h c wi wh b (ix2 p u) = var (fun k => k0_pay6 (F := Ideal) x h c wi wh b (ix2 p k)) := by
  unfold k0_pay8 var mean
  show Ideal.div (shapeCast S128x1 (multiReduction (F := Ideal) .add [1] S128
      (mulf (subf (k0_pay6 (F := Ideal) x h c wi wh b) (broadcastTo S128x1024 (k0_pay7 (F := Ideal) x h c wi wh b) broadcasts_S128x1_S128x1024))
        (subf (k0_pay6 (F := Ideal) x h c wi wh b) (broadcastTo S128x1024 (k0_pay7 (F := Ideal) x h c wi wh b) broadcasts_S128x1_S128x1024)))
      0x00000000#32 reduces_S128x1024_S128 (.inl rfl) rfl) shapeCasts_S128_S128x1 (ix2 p u)) (Ideal.ofBits .f32 0x44800000#32) = _
  refine congrArg (Ideal.div · _) (((shapeCast_a_a1_apply _ _ p u).trans (rowSum_apply _ p)).trans (Finset.sum_congr rfl fun k _ => ?_))
  have e := dev_apply x h c wi wh b p k
  unfold k0_pay9 at e
  exact congrArg₂ (· * ·) e e

/-! ## The two stored values -/

/-- The normalized value from a variance column `v36`, a deviation block `v38`, a constant column `v39` and the two
    normalization rows. -/
theorem norm_apply (v36 : FVec Ideal S128x1 .f32) (v38 : FVec Ideal S128x1024 .f32) (v39 : FVec Ideal S128x1 .f32)
    (lw lb : FVec Ideal S1x1024 .f32) (p : Fin 128) (q : Fin 1024) :
    k0_pay1 (F := Ideal) v36 v38 v39 lw lb (ix2 p q)
      = v38 (ix2 p q) * Ideal.rsqrt (v36 (ix2 p (0 : Fin 1)) + v39 (ix2 p (0 : Fin 1))) * lw (ix2 (0 : Fin 1) q) + lb (ix2 (0 : Fin 1) q) := by
  unfold k0_pay1
  show v38 (ix2 p q) * broadcastTo S128x1024 (rsqrt (addf v36 v39)) broadcasts_S128x1_S128x1024 (ix2 p q)
      * broadcastTo S128x1024 (shapeCast S1x1024 lw shapeCasts_S1x1024_S1x1024) broadcasts_S1x1024_S128x1024 (ix2 p q)
      + broadcastTo S128x1024 (shapeCast S1x1024 lb shapeCasts_S1x1024_S1x1024) broadcasts_S1x1024_S128x1024 (ix2 p q) = _
  rw [broadcastTo_a1_ab_apply, broadcastTo_1b_ab_apply, broadcastTo_1b_ab_apply, shapeCast_self, shapeCast_self]
  rfl

variable (lw lb : FVec Ideal S1x1024 .f32)

/-- What the body stores as the new cell state, at `(p, q)`. -/
theorem cOut_block (p : Fin 128) (q : Fin 1024) :
    k0_pay1 (F := Ideal) (k0_pay8 (F := Ideal) x h c wi wh b) (k0_pay9 (F := Ideal) x h c wi wh b) (k0_pay10 (F := Ideal)) lw lb (ix2 p q)
      = normK (cellRow (fun j => k0_pay3 (F := Ideal) x h wi wh b (ix2 p j)) (fun k => c (ix2 p k)))
          (fun k => lw (ix2 (0 : Fin 1) k)) (fun k => lb (ix2 (0 : Fin 1) k)) q := by
  rw [norm_apply, dev_apply, var_apply, cell_row]
  rfl

/-- What the body stores as the new hidden state, at `(p, q)`. -/
theorem hOut_block (p : Fin 128) (q : Fin 1024) :
    k0_pay2 (F := Ideal) (k0_pay5 (F := Ideal) x h wi wh b) (k0_pay8 (F := Ideal) x h c wi wh b) (k0_pay9 (F := Ideal) x h c wi wh b) (k0_pay10 (F := Ideal)) lw lb (ix2 p q)
      = hiddenRow (fun j => k0_pay3 (F := Ideal) x h wi wh b (ix2 p j))
          (k0_pay1 (F := Ideal) (k0_pay8 (F := Ideal) x h c wi wh b) (k0_pay9 (F := Ideal) x h c wi wh b) (k0_pay10 (F := Ideal)) lw lb (ix2 p q)) q := by
  unfold k0_pay2 k0_pay5 hiddenRow
  show extractStridedSlice S128x1024 ![0, 2048] (k0_pay4 (F := Ideal) x h wi wh b) slices_S128x3072_o0_2048_S128x1024 (ix2 p q)
      * Ideal.tanh (k0_pay1 (F := Ideal) (k0_pay8 (F := Ideal) x h c wi wh b) (k0_pay9 (F := Ideal) x h c wi wh b) (k0_pay10 (F := Ideal)) lw lb (ix2 p q)) = _
  exact congrArg (· * _) (gate_apply x h wi wh b 2048 (by norm_num) _ p q)

end Cert.KernelIdeal.Row

end
-- ==== Proof.ArraySpec.lean ====
/-
  The two results as whole arrays. The batch has 2048 rows; entry `(r, q)` of each result is the specification's row
  function of row `r` of `X`, `H`, `C`, with the weight matrices read as `W j k` (gate column `j`, input `k`) and the
  bias and normalization vectors read entry by entry.
-/
import proofs.«169885_j84696755077791_2_alg».proof.Proof.Spec
import Idealize.ShloMosaic.Lib.ValueIdx

noncomputable section

namespace Cert.Lstm

open Idealize.ShloMosaic Idealize.ShloMosaic.ValueIdx

/-- The normalized new cell state, a 2048 × 1024 array. -/
def cArr (X H C : (⟨2, ![2048, 1024]⟩ : Shape).Idx → EReal) (Wi Wh : (⟨2, ![4096, 1024]⟩ : Shape).Idx → EReal)
    (Bi Bh : (⟨1, ![4096]⟩ : Shape).Idx → EReal) (Lw Lb : (⟨1, ![1024]⟩ : Shape).Idx → EReal) :
    (⟨2, ![2048, 1024]⟩ : Shape).Idx → EReal :=
  fun i => cOut (fun k => X (ix2 (i 0) k)) (fun k => H (ix2 (i 0) k)) (fun k => C (ix2 (i 0) k))
    (fun j k => Wi (ix2 j k)) (fun j k => Wh (ix2 j k)) (fun j => Bi (ix1 j)) (fun j => Bh (ix1 j))
    (fun k => Lw (ix1 k)) (fun k => Lb (ix1 k)) (i 1)

/-- The new hidden state, a 2048 × 1024 array. -/
def hArr (X H C : (⟨2, ![2048, 1024]⟩ : Shape).Idx → EReal) (Wi Wh : (⟨2, ![4096, 1024]⟩ : Shape).Idx → EReal)
    (Bi Bh : (⟨1, ![4096]⟩ : Shape).Idx → EReal) (Lw Lb : (⟨1, ![1024]⟩ : Shape).Idx → EReal) :
    (⟨2, ![2048, 1024]⟩ : Shape).Idx → EReal :=
  fun i => hOut (fun k => X (ix2 (i 0) k)) (fun k => H (ix2 (i 0) k)) (fun k => C (ix2 (i 0) k))
    (fun j k => Wi (ix2 j k)) (fun j k => Wh (ix2 j k)) (fun j => Bi (ix1 j)) (fun j => Bh (ix1 j))
    (fun k => Lw (ix1 k)) (fun k => Lb (ix1 k)) (i 1)

end Cert.Lstm

end
-- ==== Proof.KernelArray.lean ====
/-
  From the blocks to the two result arrays.

  The grid has 16 points; point `t` holds rows `128 t … 128 t + 127` of `x`, `h`, `c` and of the two results, and the
  whole of the transposed weights, the summed bias row and the two normalization rows (arrays the host wrote before the
  region: a transposed matrix's entry `(k, j)` is the argument's `(j, k)`, the bias row's entry `j` the sum of the two
  bias vectors' entries, a reshaped vector's entry `(0, k)` the vector's entry `k`). So block row `p` at point `t` is
  batch row `128 t + p`, what the point writes back is its block of the whole-array specification, the 16 blocks
  cover the 2048 rows, and each result array ends holding the specification.
-/
import proofs.«169885_j84696755077791_2_alg».proof.Proof.Gen.KernelIdeal.Value
import proofs.«169885_j84696755077791_2_alg».proof.Proof.KernelRow
import proofs.«169885_j84696755077791_2_alg».proof.Proof.ArraySpec
import Idealize.ShloMosaic.Lib.StableHlo.Run

noncomputable section

namespace Cert.KernelIdeal.Arr

open Cert.KernelIdeal Cert.KernelIdeal.Gen Idealize.ShloMosaic Idealize.ShloMosaic.TcCoe Idealize.SL.Sem
open Idealize.ShloMosaic.ValueIdx Idealize.ShloMosaic.StableHlo Cert.Lstm Cert.KernelIdeal.Row
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The windows' index maps, decided over the 16 points: the five batch-row windows are at block `(t, 0)`, the five
    resident ones at block `(0, 0)`. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = t.val
    ∧ win0_8.index t (1 : Fin 2) = 0
    ∧ win0_9.index t (0 : Fin 2) = t.val
    ∧ win0_9.index t (1 : Fin 2) = 0 :=
  (by decide +kernel : ∀ t : Fin grid0.N, _)

/-- Batch row `128 t + p`. -/
def row (t : Fin cfg0.N) (p : Fin 128) : Fin 2048 :=
  ⟨t.val * 128 + p.val, by have hN : cfg0.N = 16 := N_0; have := t.isLt; have := p.isLt; omega⟩

/-! ## The argument arrays, as plain arrays of extended reals -/

abbrev aX (c : Dev nD) : S2048x1024.Idx → EReal := m ((c : Thread nD τ).loc main_arg0)
abbrev aH (c : Dev nD) : S2048x1024.Idx → EReal := m ((c : Thread nD τ).loc main_arg1)
abbrev aC (c : Dev nD) : S2048x1024.Idx → EReal := m ((c : Thread nD τ).loc main_arg2)
abbrev aWi (c : Dev nD) : S4096x1024.Idx → EReal := m ((c : Thread nD τ).loc main_arg3)
abbrev aBi (c : Dev nD) : S4096.Idx → EReal := m ((c : Thread nD τ).loc main_arg4)
abbrev aWh (c : Dev nD) : S4096x1024.Idx → EReal := m ((c : Thread nD τ).loc main_arg5)
abbrev aBh (c : Dev nD) : S4096.Idx → EReal := m ((c : Thread nD τ).loc main_arg6)
abbrev aLw (c : Dev nD) : S1024.Idx → EReal := m ((c : Thread nD τ).loc main_arg7)
abbrev aLb (c : Dev nD) : S1024.Idx → EReal := m ((c : Thread nD τ).loc main_arg8)

/-! ## The arrays the host wrote before the region -/

theorem V_v1_apply (c : Dev nD) (k : Fin 1024) (j : Fin 4096) :
    (V m c main_v1 : S1024x4096.Idx → EReal) (ix2 k j) = aWi m c (ix2 j k) := by
  have e : @Eq (S1024x4096.Idx → EReal) (V m c main_v1) (truncf (F := Ideal) .bf16 (transpose S1024x4096 [1, 0] (aWi m c) transposes_S4096x1024_S1024x4096_1_0) bitsLt_bf16_f32) := by
    dsimp only [Gen.V, Gen.hostOps0]; after_results
  rw [e]
  exact transpose_apply [1, 0] _ transposes_S4096x1024_S1024x4096_1_0 (ix2 k j) (ix2 j k) (fun b => match b with | ⟨0, _⟩ => rfl | ⟨1, _⟩ => rfl)

theorem V_v3_apply (c : Dev nD) (k : Fin 1024) (j : Fin 4096) :
    (V m c main_v3 : S1024x4096.Idx → EReal) (ix2 k j) = aWh m c (ix2 j k) := by
  have e : @Eq (S1024x4096.Idx → EReal) (V m c main_v3) (truncf (F := Ideal) .bf16 (transpose S1024x4096 [1, 0] (aWh m c) transposes_S4096x1024_S1024x4096_1_0) bitsLt_bf16_f32) := by
    dsimp only [Gen.V, Gen.hostOps0]; after_results
  rw [e]
  exact transpose_apply [1, 0] _ transposes_S4096x1024_S1024x4096_1_0 (ix2 k j) (ix2 j k) (fun b => match b with | ⟨0, _⟩ => rfl | ⟨1, _⟩ => rfl)

theorem V_v5_apply (c : Dev nD) (j : Fin 4096) :
    (V m c main_v5 : S1x4096.Idx → EReal) (ix2 (0 : Fin 1) j)
      = aBi m c (ix1 j) + aBh m c (ix1 j) := by
  have e : @Eq (S1x4096.Idx → EReal) (V m c main_v5) (shapeCast S1x4096 (addf (F := Ideal) (φ := .f32) (aBi m c) (aBh m c)) shapeCasts_S4096_S1x4096) := by
    dsimp only [Gen.V, Gen.hostOps0]; after_results; rfl
  rw [e]
  exact shapeCast_a_1a_apply _ shapeCasts_S4096_S1x4096 (0 : Fin 1) j

theorem V_v6_apply (c : Dev nD) (k : Fin 1024) :
    (V m c main_v6 : S1x1024.Idx → EReal) (ix2 (0 : Fin 1) k) = aLw m c (ix1 k) := by
  have e : @Eq (S1x1024.Idx → EReal) (V m c main_v6) (shapeCast S1x1024 (aLw m c) shapeCasts_S1024_S1x1024) := by
    dsimp only [Gen.V, Gen.hostOps0]; after_results; rfl
  rw [e]
  exact shapeCast_a_1a_apply _ shapeCasts_S1024_S1x1024 (0 : Fin 1) k

theorem V_v7_apply (c : Dev nD) (k : Fin 1024) :
    (V m c main_v7 : S1x1024.Idx → EReal) (ix2 (0 : Fin 1) k) = aLb m c (ix1 k) := by
  have e : @Eq (S1x1024.Idx → EReal) (V m c main_v7) (shapeCast S1x1024 (aLb m c) shapeCasts_S1024_S1x1024) := by
    dsimp only [Gen.V, Gen.hostOps0]; after_results; rfl
  rw [e]
  exact shapeCast_a_1a_apply _ shapeCasts_S1024_S1x1024 (0 : Fin 1) k

/-! ## The input windows' blocks, entry by entry -/

/-- Window 0's block at point `t` is rows `128 t … 128 t + 127` of its array. -/
theorem iblk0_apply (c : Dev nD) (t : Fin cfg0.N) (p : Fin 128) (k : Fin 1024) :
    (iblk m c 0 t : FVec Ideal S128x1024 .f32) (ix2 p k)
      = aX m c (ix2 (row t p) k) := by
  obtain ⟨e00, e01, e10, e11, e20, e21, e30, e31, e40, e41, e50, e51, e60, e61, e70, e71, e80, e81, e90, e91⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 128 + 1 * p.val = t.val * 128 + p.val; rw [e00]; omega
  | ⟨1, _⟩ => show win0_0.index t (1 : Fin 2) * 1024 + 1 * k.val = k.val; rw [e01]; omega

/-- Window 1's block at point `t` is rows `128 t … 128 t + 127` of its array. -/
theorem iblk1_apply (c : Dev nD) (t : Fin cfg0.N) (p : Fin 128) (k : Fin 1024) :
    (iblk m c 1 t : FVec Ideal S128x1024 .f32) (ix2 p k)
      = aH m c (ix2 (row t p) k) := by
  obtain ⟨e00, e01, e10, e11, e20, e21, e30, e31, e40, e41, e50, e51, e60, e61, e70, e71, e80, e81, e90, e91⟩ := idx_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 2) * 128 + 1 * p.val = t.val * 128 + p.val; rw [e10]; omega
  | ⟨1, _⟩ => show win0_1.index t (1 : Fin 2) * 1024 + 1 * k.val = k.val; rw [e11]; omega

/-- Window 2's block at point `t` is rows `128 t … 128 t + 127` of its array. -/
theorem iblk2_apply (c : Dev nD) (t : Fin cfg0.N) (p : Fin 128) (k : Fin 1024) :
    (iblk m c 2 t : FVec Ideal S128x1024 .f32) (ix2 p k)
      = aC m c (ix2 (row t p) k) := by
  obtain ⟨e00, e01, e10, e11, e20, e21, e30, e31, e40, e41, e50, e51, e60, e61, e70, e71, e80, e81, e90, e91⟩ := idx_facts t
  unfold iblk
  rw [View.read_apply]
  show V m c main_arg2 _ = m (c.tc.loc main_arg2) _
  rw [V_main_arg2]
  congr 1
  funext a
  apply Fin.ext
  match a with
  | ⟨0, _⟩ => show win0_2.index t (0 : Fin 2) * 128 + 1 * p.val = t.val * 128 + p.val; rw [e20]; omega
  | ⟨1, _⟩ => show win0_2.index t (1 : Fin 2) * 1024 + 1 * k.val = k.val; rw [e21]; omega

theorem iblk3_apply (c : Dev nD) (t : Fin cfg0.N) (k : Fin 1024) (j : Fin 4096) :
    (iblk m c 3 t : FVec Ideal S1024x4096 .bf16) (ix2 k j) = aWi m c (ix2 j k) := by
  obtain ⟨e00, e01, e10, e11, e20, e21, e30, e31, e40, e41, e50, e51, e60, e61, e70, e71, e80, e81, e90, e91⟩ := idx_facts t
  unfold iblk
  rw [View.read_apply]
  show (V m c main_v1 : S1024x4096.Idx → EReal) _ = _
  refine Eq.trans (congrArg (V m c main_v1 : S1024x4096.Idx → EReal) (?_ : _ = ix2 k j)) (V_v1_apply m c k j)
  funext a
  apply Fin.ext
  match a with
  | ⟨0, _⟩ => show win0_3.index t (0 : Fin 2) * 1024 + 1 * k.val = k.val; rw [e30]; omega
  | ⟨1, _⟩ => show win0_3.index t (1 : Fin 2) * 4096 + 1 * j.val = j.val; rw [e31]; omega

theorem iblk4_apply (c : Dev nD) (t : Fin cfg0.N) (k : Fin 1024) (j : Fin 4096) :
    (iblk m c 4 t : FVec Ideal S1024x4096 .bf16) (ix2 k j) = aWh m c (ix2 j k) := by
  obtain ⟨e00, e01, e10, e11, e20, e21, e30, e31, e40, e41, e50, e51, e60, e61, e70, e71, e80, e81, e90, e91⟩ := idx_facts t
  unfold iblk
  rw [View.read_apply]
  show (V m c main_v3 : S1024x4096.Idx → EReal) _ = _
  refine Eq.trans (congrArg (V m c main_v3 : S1024x4096.Idx → EReal) (?_ : _ = ix2 k j)) (V_v3_apply m c k j)
  funext a
  apply Fin.ext
  match a with
  | ⟨0, _⟩ => show win0_4.index t (0 : Fin 2) * 1024 + 1 * k.val = k.val; rw [e40]; omega
  | ⟨1, _⟩ => show win0_4.index t (1 : Fin 2) * 4096 + 1 * j.val = j.val; rw [e41]; omega

theorem iblk5_apply (c : Dev nD) (t : Fin cfg0.N) (j : Fin 4096) :
    (iblk m c 5 t : FVec Ideal S1x4096 .f32) (ix2 (0 : Fin 1) j) = aBi m c (ix1 j) + aBh m c (ix1 j) := by
  obtain ⟨e00, e01, e10, e11, e20, e21, e30, e31, e40, e41, e50, e51, e60, e61, e70, e71, e80, e81, e90, e91⟩ := idx_facts t
  unfold iblk
  rw [View.read_apply]
  show (V m c main_v5 : S1x4096.Idx → EReal) _ = _
  refine Eq.trans (congrArg (V m c main_v5 : S1x4096.Idx → EReal) (?_ : _ = ix2 (0 : Fin 1) j)) (V_v5_apply m c j)
  funext a
  apply Fin.ext
  match a with
  | ⟨0, _⟩ => show win0_5.index t (0 : Fin 2) * 1 + 1 * 0 = 0; rw [e50]
  | ⟨1, _⟩ => show win0_5.index t (1 : Fin 2) * 4096 + 1 * j.val = j.val; rw [e51]; omega

theorem iblk6_apply (c : Dev nD) (t : Fin cfg0.N) (k : Fin 1024) :
    (iblk m c 6 t : FVec Ideal S1x1024 .f32) (ix2 (0 : Fin 1) k) = aLw m c (ix1 k) := by
  obtain ⟨e00, e01, e10, e11, e20, e21, e30, e31, e40, e41, e50, e51, e60, e61, e70, e71, e80, e81, e90, e91⟩ := idx_facts t
  unfold iblk
  rw [View.read_apply]
  show (V m c main_v6 : S1x1024.Idx → EReal) _ = _
  refine Eq.trans (congrArg (V m c main_v6 : S1x1024.Idx → EReal) (?_ : _ = ix2 (0 : Fin 1) k)) (V_v6_apply m c k)
  funext a
  apply Fin.ext
  match a with
  | ⟨0, _⟩ => show win0_6.index t (0 : Fin 2) * 1 + 1 * 0 = 0; rw [e60]
  | ⟨1, _⟩ => show win0_6.index t (1 : Fin 2) * 1024 + 1 * k.val = k.val; rw [e61]; omega

theorem iblk7_apply (c : Dev nD) (t : Fin cfg0.N) (k : Fin 1024) :
    (iblk m c 7 t : FVec Ideal S1x1024 .f32) (ix2 (0 : Fin 1) k) = aLb m c (ix1 k) := by
  obtain ⟨e00, e01, e10, e11, e20, e21, e30, e31, e40, e41, e50, e51, e60, e61, e70, e71, e80, e81, e90, e91⟩ := idx_facts t
  unfold iblk
  rw [View.read_apply]
  show (V m c main_v7 : S1x1024.Idx → EReal) _ = _
  refine Eq.trans (congrArg (V m c main_v7 : S1x1024.Idx → EReal) (?_ : _ = ix2 (0 : Fin 1) k)) (V_v7_apply m c k)
  funext a
  apply Fin.ext
  match a with
  | ⟨0, _⟩ => show win0_7.index t (0 : Fin 2) * 1 + 1 * 0 = 0; rw [e70]
  | ⟨1, _⟩ => show win0_7.index t (1 : Fin 2) * 1024 + 1 * k.val = k.val; rw [e71]; omega

/-! ## One block of the results -/

/-- Entry `y` of what the body stores as the new cell state at point `t` is the whole-array specification at row
    `128 t + y₀`, column `y₁`. -/
theorem block9_apply (c : Dev nD) (t : Fin cfg0.N) (y : S128x1024.Idx) :
    k0_pay1 (F := Ideal) (k0_pay8 (F := Ideal) (iblk m c 0 t) (iblk m c 1 t) (iblk m c 2 t) (iblk m c 3 t) (iblk m c 4 t) (iblk m c 5 t)) (k0_pay9 (F := Ideal) (iblk m c 0 t) (iblk m c 1 t) (iblk m c 2 t) (iblk m c 3 t) (iblk m c 4 t) (iblk m c 5 t)) (k0_pay10 (F := Ideal)) (iblk m c 6 t) (iblk m c 7 t) y
      = cArr (aX m c) (aH m c) (aC m c) (aWi m c) (aWh m c) (aBi m c) (aBh m c) (aLw m c) (aLb m c) (ix2 (row t (y 0)) (y 1)) := by
  obtain ⟨p, q, rfl⟩ : ∃ (p : Fin 128) (q : Fin 1024), y = ix2 p q := ⟨y 0, y 1, eq_ix2 y⟩
  have hb : ∀ j : Fin 4096, (iblk m c 5 t : FVec Ideal S1x4096 .f32) (ix2 (0 : Fin 1) j)
      = aBi m c (ix1 j) + aBh m c (ix1 j) :=
    fun j => iblk5_apply m c t j
  refine (cOut_block (iblk m c 0 t) (iblk m c 1 t) (iblk m c 2 t) (iblk m c 3 t) (iblk m c 4 t) (iblk m c 5 t) (iblk m c 6 t) (iblk m c 7 t) p q).trans ?_
  rw [pre_row (iblk m c 0 t) (iblk m c 1 t) (iblk m c 3 t) (iblk m c 4 t) (iblk m c 5 t) (fun j => aBi m c (ix1 j)) (fun j => aBh m c (ix1 j)) hb p]
  simp only [iblk0_apply m c t, iblk1_apply m c t, iblk2_apply m c t, iblk3_apply m c t, iblk4_apply m c t, iblk6_apply m c t, iblk7_apply m c t]
  rfl

/-- The same for the new hidden state. -/
theorem block8_apply (c : Dev nD) (t : Fin cfg0.N) (y : S128x1024.Idx) :
    k0_pay2 (F := Ideal) (k0_pay5 (F := Ideal) (iblk m c 0 t) (iblk m c 1 t) (iblk m c 3 t) (iblk m c 4 t) (iblk m c 5 t)) (k0_pay8 (F := Ideal) (iblk m c 0 t) (iblk m c 1 t) (iblk m c 2 t) (iblk m c 3 t) (iblk m c 4 t) (iblk m c 5 t)) (k0_pay9 (F := Ideal) (iblk m c 0 t) (iblk m c 1 t) (iblk m c 2 t) (iblk m c 3 t) (iblk m c 4 t) (iblk m c 5 t)) (k0_pay10 (F := Ideal)) (iblk m c 6 t) (iblk m c 7 t) y
      = hArr (aX m c) (aH m c) (aC m c) (aWi m c) (aWh m c) (aBi m c) (aBh m c) (aLw m c) (aLb m c) (ix2 (row t (y 0)) (y 1)) := by
  have e9 := block9_apply m c t y
  obtain ⟨p, q, rfl⟩ : ∃ (p : Fin 128) (q : Fin 1024), y = ix2 p q := ⟨y 0, y 1, eq_ix2 y⟩
  have hb : ∀ j : Fin 4096, (iblk m c 5 t : FVec Ideal S1x4096 .f32) (ix2 (0 : Fin 1) j)
      = aBi m c (ix1 j) + aBh m c (ix1 j) :=
    fun j => iblk5_apply m c t j
  refine (hOut_block (iblk m c 0 t) (iblk m c 1 t) (iblk m c 2 t) (iblk m c 3 t) (iblk m c 4 t) (iblk m c 5 t) (iblk m c 6 t) (iblk m c 7 t) p q).trans ?_
  rw [e9, pre_row (iblk m c 0 t) (iblk m c 1 t) (iblk m c 3 t) (iblk m c 4 t) (iblk m c 5 t) (fun j => aBi m c (ix1 j)) (fun j => aBh m c (ix1 j)) hb p]
  simp only [iblk0_apply m c t, iblk1_apply m c t, iblk3_apply m c t, iblk4_apply m c t]
  rfl

/-! ## The blocks cover the arrays -/

/-- Where point `t`'s block of output window 8 sits in the array: rows `128 t …`. -/
theorem emb8 (t : Fin cfg0.N) (y : S128x1024.Idx) :
    ((cfg0.win 8).blk t).view.emb y = (ix2 (row t (y 0)) (y 1) : S2048x1024.Idx) := by
  obtain ⟨e00, e01, e10, e11, e20, e21, e30, e31, e40, e41, e50, e51, e60, e61, e70, e71, e80, e81, e90, e91⟩ := idx_facts t
  funext a
  apply Fin.ext
  match a with
  | ⟨0, _⟩ => show win0_8.index t (0 : Fin 2) * 128 + 1 * (y 0).val = t.val * 128 + (y 0).val; rw [e80]; omega
  | ⟨1, _⟩ => show win0_8.index t (1 : Fin 2) * 1024 + 1 * (y 1).val = (y 1).val; rw [e81]; omega

/-- What point `t` writes back to output window 8 is block `t` of the whole-array specification. -/
theorem flushed8_eq (c : Dev nD) (t : Fin cfg0.N) :
    (dats m 0 c).flushed 8 t = ((cfg0.win 8).blk t).view.read (Elt Ideal) (hArr (aX m c) (aH m c) (aC m c) (aWi m c) (aWh m c) (aBi m c) (aBh m c) (aLw m c) (aLb m c)) := by
  rw [Cert.KernelIdeal.Value.flushed8]
  unfold out0_8
  rw [View.canon_unit_zero hz]
  simp only [View.ld_unit_zero (S := S128x1024) hz, View.ld_unit_zero (S := S1024x4096) hz, View.ld_unit_zero (S := S1x4096) hz,
    View.ld_unit_zero (S := S1x1024) hz]
  funext y
  exact (block8_apply m c t y).trans (congrArg (hArr (aX m c) (aH m c) (aC m c) (aWi m c) (aWh m c) (aBi m c) (aBh m c) (aLw m c) (aLb m c)) (emb8 t y).symm)

/-- An index of the array is in point `t`'s block iff each coordinate is in the block's range on its axis. -/
theorem mem_blk8 (t : Fin cfg0.N) (i : S2048x1024.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v8_0).slice (win0_8.rect t)).set ↔ _
  rw [View.set_slice_whole, Rect.mem_set_unit]
  exact Iff.rfl

/-- Every row of the array is in some point's block: row `r` in point `r / 128`'s. -/
theorem cover8 (i : S2048x1024.Idx) : ∃ t : Fin cfg0.N, (cfg0.win 8).flush t = true ∧ i ∈ ((cfg0.win 8).blk t).view.set := by
  have hi0 : (i 0).val < 2048 := (i 0).isLt
  have hi1 : (i 1).val < 1024 := (i 1).isLt
  have hN : cfg0.N = 16 := N_0
  have ht : (i 0).val / 128 < cfg0.N := by rw [hN]; omega
  obtain ⟨e00, e01, e10, e11, e20, e21, e30, e31, e40, e41, e50, e51, e60, e61, e70, e71, e80, e81, e90, e91⟩ := idx_facts ⟨(i 0).val / 128, ht⟩
  refine ⟨⟨(i 0).val / 128, ht⟩, flush0_8 _, ?_⟩
  rw [mem_blk8]
  intro a
  match a with
  | ⟨0, _⟩ =>
    show win0_8.index ⟨(i 0).val / 128, ht⟩ (0 : Fin 2) * 128 ≤ (i 0).val ∧ (i 0).val < win0_8.index ⟨(i 0).val / 128, ht⟩ (0 : Fin 2) * 128 + 128
    rw [e80]; show (i 0).val / 128 * 128 ≤ (i 0).val ∧ (i 0).val < (i 0).val / 128 * 128 + 128; omega
  | ⟨1, _⟩ =>
    show win0_8.index ⟨(i 0).val / 128, ht⟩ (1 : Fin 2) * 1024 ≤ (i 1).val ∧ (i 1).val < win0_8.index ⟨(i 0).val / 128, ht⟩ (1 : Fin 2) * 1024 + 1024
    rw [e81]; omega

/-- So the array ends holding the specification. -/
theorem final8 (c : Dev nD) : (dats m 0 c).arrAt 8 cfg0.N = hArr (aX m c) (aH m c) (aC m c) (aWi m c) (aWh m c) (aBi m c) (aBh m c) (aLw m c) (aLb m c) :=
  (dats m 0 c).arrAt_eq_of_cover 8 (hArr (aX m c) (aH m c) (aC m c) (aWi m c) (aWh m c) (aBi m c) (aBh m c) (aLw m c) (aLb m c)) (fun t _ => flushed8_eq m c t) cover8

/-- Where point `t`'s block of output window 9 sits in the array: rows `128 t …`. -/
theorem emb9 (t : Fin cfg0.N) (y : S128x1024.Idx) :
    ((cfg0.win 9).blk t).view.emb y = (ix2 (row t (y 0)) (y 1) : S2048x1024.Idx) := by
  obtain ⟨e00, e01, e10, e11, e20, e21, e30, e31, e40, e41, e50, e51, e60, e61, e70, e71, e80, e81, e90, e91⟩ := idx_facts t
  funext a
  apply Fin.ext
  match a with
  | ⟨0, _⟩ => show win0_9.index t (0 : Fin 2) * 128 + 1 * (y 0).val = t.val * 128 + (y 0).val; rw [e90]; omega
  | ⟨1, _⟩ => show win0_9.index t (1 : Fin 2) * 1024 + 1 * (y 1).val = (y 1).val; rw [e91]; omega

/-- What point `t` writes back to output window 9 is block `t` of the whole-array specification. -/
theorem flushed9_eq (c : Dev nD) (t : Fin cfg0.N) :
    (dats m 0 c).flushed 9 t = ((cfg0.win 9).blk t).view.read (Elt Ideal) (cArr (aX m c) (aH m c) (aC m c) (aWi m c) (aWh m c) (aBi m c) (aBh m c) (aLw m c) (aLb m c)) := by
  rw [Cert.KernelIdeal.Value.flushed9]
  unfold out0_9
  rw [View.canon_unit_zero hz]
  simp only [View.ld_unit_zero (S := S128x1024) hz, View.ld_unit_zero (S := S1024x4096) hz, View.ld_unit_zero (S := S1x4096) hz,
    View.ld_unit_zero (S := S1x1024) hz]
  funext y
  exact (block9_apply m c t y).trans (congrArg (cArr (aX m c) (aH m c) (aC m c) (aWi m c) (aWh m c) (aBi m c) (aBh m c) (aLw m c) (aLb m c)) (emb9 t y).symm)

/-- An index of the array is in point `t`'s block iff each coordinate is in the block's range on its axis. -/
theorem mem_blk9 (t : Fin cfg0.N) (i : S2048x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v8_1).slice (win0_9.rect t)).set ↔ _
  rw [View.set_slice_whole, Rect.mem_set_unit]
  exact Iff.rfl

/-- Every row of the array is in some point's block: row `r` in point `r / 128`'s. -/
theorem cover9 (i : S2048x1024.Idx) : ∃ t : Fin cfg0.N, (cfg0.win 9).flush t = true ∧ i ∈ ((cfg0.win 9).blk t).view.set := by
  have hi0 : (i 0).val < 2048 := (i 0).isLt
  have hi1 : (i 1).val < 1024 := (i 1).isLt
  have hN : cfg0.N = 16 := N_0
  have ht : (i 0).val / 128 < cfg0.N := by rw [hN]; omega
  obtain ⟨e00, e01, e10, e11, e20, e21, e30, e31, e40, e41, e50, e51, e60, e61, e70, e71, e80, e81, e90, e91⟩ := idx_facts ⟨(i 0).val / 128, ht⟩
  refine ⟨⟨(i 0).val / 128, ht⟩, flush0_9 _, ?_⟩
  rw [mem_blk9]
  intro a
  match a with
  | ⟨0, _⟩ =>
    show win0_9.index ⟨(i 0).val / 128, ht⟩ (0 : Fin 2) * 128 ≤ (i 0).val ∧ (i 0).val < win0_9.index ⟨(i 0).val / 128, ht⟩ (0 : Fin 2) * 128 + 128
    rw [e90]; show (i 0).val / 128 * 128 ≤ (i 0).val ∧ (i 0).val < (i 0).val / 128 * 128 + 128; omega
  | ⟨1, _⟩ =>
    show win0_9.index ⟨(i 0).val / 128, ht⟩ (1 : Fin 2) * 1024 ≤ (i 1).val ∧ (i 1).val < win0_9.index ⟨(i 0).val / 128, ht⟩ (1 : Fin 2) * 1024 + 1024
    rw [e91]; omega

/-- So the array ends holding the specification. -/
theorem final9 (c : Dev nD) : (dats m 0 c).arrAt 9 cfg0.N = cArr (aX m c) (aH m c) (aC m c) (aWi m c) (aWh m c) (aBi m c) (aBh m c) (aLw m c) (aLb m c) :=
  (dats m 0 c).arrAt_eq_of_cover 9 (cArr (aX m c) (aH m c) (aC m c) (aWi m c) (aWh m c) (aBi m c) (aBh m c) (aLw m c) (aLb m c)) (fun t _ => flushed9_eq m c t) cover9

/-! ## The run -/

/-- Every weakly fair execution of the kernel's program ends with the two result arrays at the specification and the
    arguments unchanged. -/
theorem run : θ_run defs (onTc (τ := τ) (main (F := Ideal))) ⟨m, fun _ => 0, ρ⟩ fun r => ∀ c : Dev nD,
      r.2.mem ((c : Thread nD τ).loc main_v8_0) = hArr (aX m c) (aH m c) (aC m c) (aWi m c) (aWh m c) (aBi m c) (aBh m c) (aLw m c) (aLb m c)
      ∧ r.2.mem ((c : Thread nD τ).loc main_v8_1) = cArr (aX m c) (aH m c) (aC m c) (aWi m c) (aWh m c) (aBi m c) (aBh m c) (aLw m c) (aLb m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final8 m c), (h c).2.1.trans (final9 m c), (h c).2.2⟩)
    (Cert.KernelIdeal.Value.run_blocks m ρ)

end Cert.KernelIdeal.Arr

end
-- ==== Proof.RefValue.lean ====
/-
  The reference program, read entry by entry.

  The reference computes on whole 2048-row arrays: the two matrix products against the transposed weights, each bias
  added right after its product, the logistic written out as `1 / (1 + exp (-z))`, the gates cut out by column slices,
  row sums kept as columns, a division by the square root of the variance plus the constant. Entry `(r, q)` of each
  stage depends on row `r` of the arguments only and is the specification's row function of those rows: the written-out
  logistic is the logistic, the bias order does not matter, and dividing by the square root is multiplying by the
  inverse square root because the variance plus the constant is positive.
-/
import proofs.«169885_j84696755077791_2_alg».proof.Proof.Gen.ReferenceIdeal.Read
import proofs.«169885_j84696755077791_2_alg».proof.Proof.ArraySpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Lstm

variable (x0 x1 x2 : (⟨S2048x1024, .f32⟩ : BufTy).Contents (Elt Ideal)) (x3 : (⟨S4096x1024, .f32⟩ : BufTy).Contents (Elt Ideal))
  (x4 : (⟨S4096, .f32⟩ : BufTy).Contents (Elt Ideal)) (x5 : (⟨S4096x1024, .f32⟩ : BufTy).Contents (Elt Ideal))
  (x6 : (⟨S4096, .f32⟩ : BufTy).Contents (Elt Ideal)) (x7 x8 : (⟨S1024, .f32⟩ : BufTy).Contents (Elt Ideal))

/-! ## The pre-activations -/

/-- Gate column `j` of batch row `r`: each bias added right after its dot product. -/
theorem pre_apply (r : Fin 2048) (j : Fin 4096) :
    val_main_v10 (F := Ideal) x0 x1 x3 x4 x5 x6 (ix2 r j)
      = preR (fun k => x0 (ix2 r k)) (fun k => x1 (ix2 r k)) (fun j k => x3 (ix2 j k)) (fun j k => x5 (ix2 j k))
          (fun j => x4 (ix1 j)) (fun j => x6 (ix1 j)) j := by
  have a1 : ∀ k : Fin 1024, lidx_main_v1 (ix2 r j) k = ix2 r k := fun k => funext fun a => Fin.ext (by match a with | ⟨0, _⟩ => rfl | ⟨1, _⟩ => rfl)
  have a2 : ∀ k : Fin 1024, idx_main_v0 (ridx_main_v1 (ix2 r j) k) = ix2 j k := fun k => funext fun a => Fin.ext (by match a with | ⟨0, _⟩ => rfl | ⟨1, _⟩ => rfl)
  have a3 : ∀ k : Fin 1024, lidx_main_v6 (ix2 r j) k = ix2 r k := fun k => funext fun a => Fin.ext (by match a with | ⟨0, _⟩ => rfl | ⟨1, _⟩ => rfl)
  have a4 : ∀ k : Fin 1024, idx_main_v5 (ridx_main_v6 (ix2 r j) k) = ix2 j k := fun k => funext fun a => Fin.ext (by match a with | ⟨0, _⟩ => rfl | ⟨1, _⟩ => rfl)
  have a5 : idx_main_v2 (idx_main_v3 (ix2 r j)) = ix1 j := funext fun a => Fin.ext (by match a with | ⟨0, _⟩ => rfl)
  have a6 : idx_main_v8 (idx_main_v9 (ix2 r j)) = ix1 j := funext fun a => Fin.ext (by match a with | ⟨0, _⟩ => rfl)
  rw [val_main_v10_apply, val_main_v7_apply, val_main_v4_apply, val_main_v1_apply, val_main_v3_apply, val_main_v2_apply,
    val_main_v6_apply, val_main_v9_apply, val_main_v8_apply]
  simp only [val_main_v0_apply, val_main_v5_apply, a1, a2, a3, a4, a5, a6]
  rfl

theorem pre_row (r : Fin 2048) :
    (fun j : Fin 4096 => val_main_v10 (F := Ideal) x0 x1 x3 x4 x5 x6 (ix2 r j))
      = preK (fun k => x0 (ix2 r k)) (fun k => x1 (ix2 r k)) (fun j k => x3 (ix2 j k)) (fun j k => x5 (ix2 j k))
          (fun j => x4 (ix1 j)) (fun j => x6 (ix1 j)) :=
  (funext fun j => pre_apply x0 x1 x3 x4 x5 x6 r j).trans (preR_eq_preK _ _ _ _ _ _)

/-! ## The gates -/

/-- `1 / (1 + exp (-z))` over the first 3072 columns is the logistic; column `k1` of those is column `k2` of the 4096. -/
theorem sig_apply (r : Fin 2048) (k1 : Fin 3072) (k2 : Fin 4096) (hk : k2.val = k1.val) :
    val_main_v17 (F := Ideal) x0 x1 x3 x4 x5 x6 (ix2 r k1) = Ideal.logistic (val_main_v10 (F := Ideal) x0 x1 x3 x4 x5 x6 (ix2 r k2)) := by
  have a1 : idx_main_v11 (ix2 r k1) = ix2 r k2 := funext fun a => Fin.ext (by match a with | ⟨0, _⟩ => rfl | ⟨1, _⟩ => exact hk.symm)
  rw [val_main_v17_apply, val_main_v16_apply, val_main_cst_0_apply, val_main_v15_apply, val_main_v14_apply, val_main_cst_apply,
    val_main_v13_apply, val_main_v12_apply, val_main_v11_apply, a1]
  show Ideal.div (Ideal.ofBits .f32 0x3F800000#32) (Ideal.ofBits .f32 0x3F800000#32 + Ideal.exp (-(val_main_v10 (F := Ideal) x0 x1 x3 x4 x5 x6 (ix2 r k2)))) = _
  rw [ofBits_one]
  rfl

/-- The new cell state before normalization, at `(r, q)`. -/
theorem cell_apply (r : Fin 2048) (q : Fin 1024) :
    val_main_v25 (F := Ideal) x0 x1 x2 x3 x4 x5 x6 (ix2 r q) = cellRow (fun j => val_main_v10 (F := Ideal) x0 x1 x3 x4 x5 x6 (ix2 r j)) (fun k => x2 (ix2 r k)) q := by
  have hq : q.val < 1024 := q.isLt
  have a1 : idx_main_v18 (ix2 r q) = ix2 r (gate 3072 (by norm_num) q) := funext fun a => Fin.ext (by match a with | ⟨0, _⟩ => rfl | ⟨1, _⟩ => rfl)
  have b1 : idx_main_v21 (ix2 r q) = ix2 r (⟨1024 + q.val, by omega⟩ : Fin 3072) := funext fun a => Fin.ext (by match a with | ⟨0, _⟩ => rfl | ⟨1, _⟩ => rfl)
  have b0 : idx_main_v20 (ix2 r q) = ix2 r (⟨q.val, by omega⟩ : Fin 3072) := funext fun a => Fin.ext (by match a with | ⟨0, _⟩ => rfl | ⟨1, _⟩ => rfl)
  rw [val_main_v25_apply, val_main_v23_apply, val_main_v24_apply, val_main_v21_apply, val_main_v20_apply, val_main_v19_apply,
    val_main_v18_apply, a1, b1, b0,
    sig_apply x0 x1 x3 x4 x5 x6 r (⟨1024 + q.val, by omega⟩ : Fin 3072) (gate 1024 (by norm_num) q) rfl,
    sig_apply x0 x1 x3 x4 x5 x6 r (⟨q.val, by omega⟩ : Fin 3072) (gate 0 (by norm_num) q) (by show 0 + q.val = q.val; omega)]
  rfl

theorem cell_row (r : Fin 2048) :
    (fun k : Fin 1024 => val_main_v25 (F := Ideal) x0 x1 x2 x3 x4 x5 x6 (ix2 r k)) = cellRow (fun j => val_main_v10 (F := Ideal) x0 x1 x3 x4 x5 x6 (ix2 r j)) (fun k => x2 (ix2 r k)) :=
  funext fun k => cell_apply x0 x1 x2 x3 x4 x5 x6 r k

/-! ## Mean, deviation, variance -/

theorem mean_apply (r : Fin 2048) (u : Fin 1) :
    val_main_v29 (F := Ideal) x0 x1 x2 x3 x4 x5 x6 (ix2 r u) = mean (fun k => val_main_v25 (F := Ideal) x0 x1 x2 x3 x4 x5 x6 (ix2 r k)) := by
  have a1 : ∀ k : Fin 1024, idx_main_v26 (idx_main_v27 (ix2 r u)) k = ix2 r k := fun k => funext fun a => Fin.ext (by match a with | ⟨0, _⟩ => rfl | ⟨1, _⟩ => rfl)
  rw [val_main_v29_apply, val_main_v27_apply, val_main_v26_apply, val_main_v28_apply, val_main_cst_2_apply, val_main_cst_1_apply]
  simp only [a1]
  show Ideal.div (Ideal.ofBits .f32 0x00000000#32 + ∑ k : Fin 1024, val_main_v25 (F := Ideal) x0 x1 x2 x3 x4 x5 x6 (ix2 r k)) (Ideal.ofBits .f32 0x44800000#32) = _
  rw [Ideal.ofBits_zero_f32, zero_add]
  rfl

theorem dev31_apply (r : Fin 2048) (q : Fin 1024) :
    val_main_v31 (F := Ideal) x0 x1 x2 x3 x4 x5 x6 (ix2 r q) = dev (fun k => val_main_v25 (F := Ideal) x0 x1 x2 x3 x4 x5 x6 (ix2 r k)) q := by
  have a1 : idx_main_v30 (ix2 r q) = ix2 r (0 : Fin 1) := funext fun a => Fin.ext (by match a with | ⟨0, _⟩ => rfl | ⟨1, _⟩ => rfl)
  rw [val_main_v31_apply, val_main_v30_apply, a1, mean_apply]
  rfl

theorem dev38_apply (r : Fin 2048) (q : Fin 1024) :
    val_main_v38 (F := Ideal) x0 x1 x2 x3 x4 x5 x6 (ix2 r q) = dev (fun k => val_main_v25 (F := Ideal) x0 x1 x2 x3 x4 x5 x6 (ix2 r k)) q := by
  have a1 : idx_main_v37 (ix2 r q) = ix2 r (0 : Fin 1) := funext fun a => Fin.ext (by match a with | ⟨0, _⟩ => rfl | ⟨1, _⟩ => rfl)
  rw [val_main_v38_apply, val_main_v37_apply, a1, mean_apply]
  rfl

theorem var_apply (r : Fin 2048) (u : Fin 1) :
    val_main_v36 (F := Ideal) x0 x1 x2 x3 x4 x5 x6 (ix2 r u) = var (fun k => val_main_v25 (F := Ideal) x0 x1 x2 x3 x4 x5 x6 (ix2 r k)) := by
  have a1 : ∀ k : Fin 1024, idx_main_v33 (idx_main_v34 (ix2 r u)) k = ix2 r k := fun k => funext fun a => Fin.ext (by match a with | ⟨0, _⟩ => rfl | ⟨1, _⟩ => rfl)
  rw [val_main_v36_apply, val_main_v34_apply, val_main_v33_apply, val_main_v35_apply, val_main_cst_4_apply, val_main_cst_3_apply]
  simp only [a1, val_main_v32_apply, dev31_apply]
  show Ideal.div (Ideal.ofBits .f32 0x00000000#32 + ∑ k : Fin 1024, dev (fun k => val_main_v25 (F := Ideal) x0 x1 x2 x3 x4 x5 x6 (ix2 r k)) k * dev (fun k => val_main_v25 (F := Ideal) x0 x1 x2 x3 x4 x5 x6 (ix2 r k)) k) (Ideal.ofBits .f32 0x44800000#32) = _
  rw [Ideal.ofBits_zero_f32, zero_add]
  rfl

/-! ## The two results -/

/-- The normalized new cell state at `(r, q)`, with the division by the square root. -/
theorem norm_apply (r : Fin 2048) (q : Fin 1024) :
    val_main_v49 (F := Ideal) x0 x1 x2 x3 x4 x5 x6 x7 x8 (ix2 r q)
      = normR (fun k => val_main_v25 (F := Ideal) x0 x1 x2 x3 x4 x5 x6 (ix2 r k)) (fun k => x7 (ix1 k)) (fun k => x8 (ix1 k)) q := by
  have a1 : idx_main_v42 (ix2 r q) = ix2 r (0 : Fin 1) := funext fun a => Fin.ext (by match a with | ⟨0, _⟩ => rfl | ⟨1, _⟩ => rfl)
  have a2 : idx_main_v44 (idx_main_v45 (ix2 r q)) = ix1 q := funext fun a => Fin.ext (by match a with | ⟨0, _⟩ => rfl)
  have a3 : idx_main_v47 (idx_main_v48 (ix2 r q)) = ix1 q := funext fun a => Fin.ext (by match a with | ⟨0, _⟩ => rfl)
  rw [val_main_v49_apply, val_main_v46_apply, val_main_v43_apply, val_main_v42_apply, val_main_v41_apply, val_main_v40_apply,
    val_main_v39_apply, val_main_cst_5_apply, val_main_v45_apply, val_main_v44_apply, val_main_v48_apply, val_main_v47_apply,
    a1, a2, a3, dev38_apply, var_apply]
  rfl

/-- The new hidden state at `(r, q)`. -/
theorem hidden_apply (r : Fin 2048) (q : Fin 1024) :
    val_main_v51 (F := Ideal) x0 x1 x2 x3 x4 x5 x6 x7 x8 (ix2 r q)
      = hiddenRow (fun j => val_main_v10 (F := Ideal) x0 x1 x3 x4 x5 x6 (ix2 r j)) (val_main_v49 (F := Ideal) x0 x1 x2 x3 x4 x5 x6 x7 x8 (ix2 r q)) q := by
  have hq : q.val < 1024 := q.isLt
  have b2 : idx_main_v22 (ix2 r q) = ix2 r (⟨2048 + q.val, by omega⟩ : Fin 3072) := funext fun a => Fin.ext (by match a with | ⟨0, _⟩ => rfl | ⟨1, _⟩ => rfl)
  rw [val_main_v51_apply, val_main_v50_apply, val_main_v22_apply, b2,
    sig_apply x0 x1 x3 x4 x5 x6 r (⟨2048 + q.val, by omega⟩ : Fin 3072) (gate 2048 (by norm_num) q) rfl]
  rfl

/-- The reference's second result is the whole-array specification of the new cell state. -/
theorem c_eq : val_main_v49 (F := Ideal) x0 x1 x2 x3 x4 x5 x6 x7 x8 = cArr x0 x1 x2 x3 x5 x4 x6 x7 x8 := by
  funext i
  obtain ⟨r, q, rfl⟩ : ∃ (r : Fin 2048) (q : Fin 1024), i = ix2 r q := ⟨i 0, i 1, eq_ix2 i⟩
  rw [norm_apply, cell_row, pre_row, normR_eq_normK]
  rfl

/-- The reference's first result is the whole-array specification of the new hidden state. -/
theorem h_eq : val_main_v51 (F := Ideal) x0 x1 x2 x3 x4 x5 x6 x7 x8 = hArr x0 x1 x2 x3 x5 x4 x6 x7 x8 := by
  funext i
  obtain ⟨r, q, rfl⟩ : ∃ (r : Fin 2048) (q : Fin 1024), i = ix2 r q := ⟨i 0, i 1, eq_ix2 i⟩
  rw [hidden_apply, c_eq, pre_row]
  rfl

end Cert.ReferenceIdeal.RefValue

end
-- ==== Proof.lean ====
/-
  An LSTM cell step with a layer-normalized cell state: the tiled kernel against the plain array program, on the
  extended reals.

  Both programs compute, for each of the 2048 batch rows, the gate pre-activations `x · W_ihᵀ + h · W_hhᵀ` plus the two
  biases, the gates `σ` and `tanh` of their column ranges, the new cell state `c · σ(f) + σ(i) · tanh(g)`, its
  normalization along the row (mean and variance over 1024 entries, a positive constant added to the variance), and the
  new hidden state `σ(o) · tanh` of the normalized cell state. They differ in three places, none of which changes a
  value on the extended reals: the kernel adds the two biases to each other before adding them to the products, the
  reference adds each after its product (addition is commutative and associative); the kernel applies one logistic
  operation where the reference writes `1 / (1 + exp (-z))` (the logistic is that expression); the kernel multiplies by
  the inverse square root where the reference divides by the square root (equal for a positive argument, and a mean of
  squares plus a positive constant is positive whatever the row holds). The kernel works on 16 blocks of 128 rows and
  the reference on the whole arrays; a row's results depend on that row only, so the blocks are the rows of one
  whole-array function.

  The modules: `Spec` (a row, and the laws), `ArraySpec` (the two results as whole arrays), `KernelRow` (a block of
  the kernel entry by entry), `KernelArray` (from the blocks to the arrays, and the kernel's run), `RefValue` (the
  reference entry by entry). Here the five claims are put together.
-/
import proofs.«169885_j84696755077791_2_alg».proof.Defs
import proofs.«169885_j84696755077791_2_alg».proof.Proof.Gen.Kernel
import proofs.«169885_j84696755077791_2_alg».proof.Proof.Gen.Kernel.Skeleton
import proofs.«169885_j84696755077791_2_alg».proof.Proof.Gen.Kernel.Launch
import proofs.«169885_j84696755077791_2_alg».proof.Proof.Gen.Kernel.Points
import proofs.«169885_j84696755077791_2_alg».proof.Proof.Gen.Kernel.Frame
import proofs.«169885_j84696755077791_2_alg».proof.Proof.Gen.KernelIdeal
import proofs.«169885_j84696755077791_2_alg».proof.Proof.Gen.KernelIdeal.Skeleton
import proofs.«169885_j84696755077791_2_alg».proof.Proof.Gen.KernelIdeal.Launch
import proofs.«169885_j84696755077791_2_alg».proof.Proof.Gen.KernelIdeal.Points
import proofs.«169885_j84696755077791_2_alg».proof.Proof.Gen.KernelIdeal.Frame
import proofs.«169885_j84696755077791_2_alg».proof.Proof.Gen.ReferenceIdeal
import proofs.«169885_j84696755077791_2_alg».proof.Proof.Gen.KernelIdeal.Value
import proofs.«169885_j84696755077791_2_alg».proof.Proof.Gen.ReferenceIdeal.Run
import proofs.«169885_j84696755077791_2_alg».proof.Proof.Gen.ReferenceIdeal.Read
import proofs.«169885_j84696755077791_2_alg».proof.Proof.Gen.Pre_finite_inputs
import proofs.«169885_j84696755077791_2_alg».proof.Proof.KernelArray
import proofs.«169885_j84696755077791_2_alg».proof.Proof.RefValue
import Idealize.ShloMosaic.Adequacy
import Idealize.ShloMosaic.Init

noncomputable section

namespace Cert.Proof

open Idealize.ShloMosaic Idealize.ShloMosaic.TcCoe Idealize.SL.Sem Cert.Lstm

/-- The kernel's program at the word level runs to the end without a fault and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- So does the reference: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the nine arguments both programs end with the new hidden state and the normalized new
    cell state at the same whole-array functions of the arguments. -/
theorem algebraic : Cert.algebraic_KernelIdeal_ReferenceIdeal := by
  intro m ρ m' ρ' _ hagree
  refine ⟨fun c => hArr (Cert.KernelIdeal.Arr.aX m c) (Cert.KernelIdeal.Arr.aH m c) (Cert.KernelIdeal.Arr.aC m c) (Cert.KernelIdeal.Arr.aWi m c) (Cert.KernelIdeal.Arr.aWh m c) (Cert.KernelIdeal.Arr.aBi m c) (Cert.KernelIdeal.Arr.aBh m c) (Cert.KernelIdeal.Arr.aLw m c) (Cert.KernelIdeal.Arr.aLb m c), fun c => cArr (Cert.KernelIdeal.Arr.aX m c) (Cert.KernelIdeal.Arr.aH m c) (Cert.KernelIdeal.Arr.aC m c) (Cert.KernelIdeal.Arr.aWi m c) (Cert.KernelIdeal.Arr.aWh m c) (Cert.KernelIdeal.Arr.aBi m c) (Cert.KernelIdeal.Arr.aBh m c) (Cert.KernelIdeal.Arr.aLw m c) (Cert.KernelIdeal.Arr.aLb m c), Cert.KernelIdeal.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · have ha := hagree c
    rw [Cert.ReferenceIdeal.Read.val_main_v51_eq, Cert.ReferenceIdeal.RefValue.h_eq, ha.1, ha.2.1, ha.2.2.1, ha.2.2.2.1, ha.2.2.2.2.1, ha.2.2.2.2.2.1, ha.2.2.2.2.2.2.1, ha.2.2.2.2.2.2.2.1, ha.2.2.2.2.2.2.2.2]
  · have ha := hagree c
    rw [Cert.ReferenceIdeal.Read.val_main_v49_eq, Cert.ReferenceIdeal.RefValue.c_eq, ha.1, ha.2.1, ha.2.2.1, ha.2.2.2.1, ha.2.2.2.2.1, ha.2.2.2.2.2.1, ha.2.2.2.2.2.2.1, ha.2.2.2.2.2.2.2.1, ha.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
